-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4x4096x1024 .f32) (main_arg2 : FVec F S4x4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S1x1024 : Shape := ⟨2, ![1, 1024]⟩
abbrev S4x16x4096x64 : Shape := ⟨4, ![4, 16, 4096, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x16x64 : Shape := ⟨3, ![512, 16, 64]⟩
abbrev S16x512x64 : Shape := ⟨3, ![16, 512, 64]⟩

abbrev nBuf : Space → Nat
  | .hbm => 15
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S4x16x4096x64, .f32⟩
  | .hbm, ⟨11, _⟩ => ⟨S1x1024, .f32⟩
  | .hbm, ⟨12, _⟩ => ⟨S4x16x4096x64, .f32⟩
  | .hbm, ⟨13, _⟩ => ⟨S1x1024, .f32⟩
  | .hbm, ⟨14, _⟩ => ⟨S4x16x4096x64, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x1024, .f32⟩
  | .local _ .vmem, ⟨4, _⟩ => ⟨S1x16x512x64, .f32⟩
  | .local _ .vmem, ⟨5, _⟩ => ⟨S1x16x512x64, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1x1024, .f32⟩
  | .local _ .vmem, ⟨10, _⟩ => ⟨S1x16x512x64, .f32⟩
  | .local _ .vmem, ⟨11, _⟩ => ⟨S1x16x512x64, .f32⟩
  | .local _ .vmem, ⟨12, _⟩ => ⟨S1x512x1024, .f32⟩
  | .local _ .vmem, ⟨13, _⟩ => ⟨S1x512x1024, .f32⟩
  | .local _ .vmem, ⟨14, _⟩ => ⟨S1024x1024, .f32⟩
  | .local _ .vmem, ⟨15, _⟩ => ⟨S1x1024, .f32⟩
  | .local _ .vmem, ⟨16, _⟩ => ⟨S1x16x512x64, .f32⟩
  | .local _ .vmem, ⟨17, _⟩ => ⟨S1x16x512x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x16x512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S4x16x4096x64.size a
  hwx0_3 : ∀ i : grid0.Coords, EltTy.bits .f32 = 32 ∨ (Rect.block (s := S4x16x4096x64) S1x16x512x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x512x64.size a ≤ S4x16x4096x64.size a
  hwx1_3 : ∀ i : grid1.Coords, EltTy.bits .f32 = 32 ∨ (Rect.block (s := S4x16x4096x64) S1x16x512x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x4096x1024.size a
  hwx2_0 : ∀ i : grid2.Coords, EltTy.bits .f32 = 32 ∨ (Rect.block (s := S4x4096x1024) S1x512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x16x512x64.size a ≤ S4x16x4096x64.size a
  hwx2_3 : ∀ i : grid2.Coords, EltTy.bits .f32 = 32 ∨ (Rect.block (s := S4x16x4096x64) S1x16x512x64.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x16x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x16x512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x4096x16x64 : Shape := ⟨4, ![4, 4096, 16, 64]⟩
abbrev S4x16x4096x64 : Shape := ⟨4, ![4, 16, 4096, 64]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x4096x1024, .f32⟩
  | .hbm, ⟨10, _⟩ => ⟨S1x1x1024, .f32⟩
  | .hbm, ⟨11, _⟩ => ⟨S4x4096x1024, .f32⟩
  | .hbm, ⟨12, _⟩ => ⟨S4x4096x1024, .f32⟩
  | .hbm, ⟨13, _⟩ => ⟨S4x4096x16x64, .f32⟩
  | .hbm, ⟨14, _⟩ => ⟨S4x16x4096x64, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x16x64, .f32⟩
  | .hbm, ⟨20, _⟩ => ⟨S4x16x4096x64, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x16x64, .f32⟩
  | .hbm, ⟨26, _⟩ => ⟨S4x16x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  dot_S4x4096x1024_S1024x1024_S4x4096x1024_2_0_01_1_n_n_wf : DotDims.WF S4x4096x1024 S1024x1024 S4x4096x1024 [2] [0] [0, 1] [1] [] []

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf

class Facts : Prop extends Facts₀ where

variable [Facts]
-- ==== Proof.NamedRun.lean ====
/-
  The idealized kernel program's run, with its three result arrays named.

  The program is three pallas_calls, each preceded by one host reshape of its bias. Its run is a fold of the core's
  buffer contents through six boundaries: a reshape rewrites one buffer, a pallas_call leaves each of its arrays at
  what its write-backs make of it and every other buffer alone. Every weakly fair execution terminates without a
  fault in a state whose unscoped buffers hold the last boundary's contents; read at the nine argument buffers that
  says the arguments end as launched, and read at the three result buffers it names what the program returns: the
  last boundary's contents there, which the next module traces back to the pallas_call that wrote each.
-/
import proofs.«135688_j85753317032126_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result array at the last
    boundary's contents and each argument array as launched. -/
theorem run_named : θ_run defs (onTc (τ := τ) (main (F := F))) ⟨m, fun _ => 0, ρ⟩ (fun r => ∀ c : Dev nD,
      r.2.mem ((c.tc : Thread nD τ).loc main_v1) = W6 m ρ c (Proc.devRef .tc main_v1)
      ∧ r.2.mem ((c.tc : Thread nD τ).loc main_v3) = W6 m ρ c (Proc.devRef .tc main_v3)
      ∧ r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v1 (by decide)),
       h c _ (mem_uc main_v3 (by decide)),
       h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.NamedRun

end
-- ==== Proof.Boundaries.lean ====
/-
  The buffer contents at the boundaries of the program, read where the proof needs them.

  Between the launch and the return the core's buffers pass through six boundaries: after each host reshape and after
  each pallas_call. A reshape writes one buffer — the bias of the coming pallas_call viewed as a [1, 1024] row — and a
  pallas_call writes only its own result array. Hence:

  * when a pallas_call is entered, its activation and weight arrays still hold the launch contents of the arguments it
    was given, and its bias row holds the reshaped launch contents of its bias argument, whatever ran before it;
  * at the return, each result array holds what its own pallas_call's write-backs left in it: nothing later touches it.
-/
import proofs.«135688_j85753317032126_2_alg».proof.Proof.Gen.KernelIdeal.Frame

set_option maxRecDepth 16384

noncomputable section

namespace Cert.KernelIdeal.Boundaries

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-! ## One host reshape: what it writes and what it keeps -/

section Stretches
variable (V : Valuation τ sig (Elt F))

theorem reshape0_keeps (b : Ref sig .tc) (hb : b ≠ main_v0) :
    StableHlo.after (hostOps0 (F := F)) V (Proc.devRef .tc b) = V (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem reshape1_keeps (b : Ref sig .tc) (hb : b ≠ main_v2) :
    StableHlo.after (hostOps1 (F := F)) V (Proc.devRef .tc b) = V (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))
theorem reshape2_keeps (b : Ref sig .tc) (hb : b ≠ main_v4) :
    StableHlo.after (hostOps2 (F := F)) V (Proc.devRef .tc b) = V (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The bias vector viewed as a [1, 1024] row. -/
theorem reshape0_row :
    StableHlo.after (hostOps0 (F := F)) V (Proc.devRef .tc main_v0)
      = shapeCast S1x1024 (V (Proc.devRef .tc main_arg4)) shapeCasts_S1024_S1x1024 := by
  dsimp only [hostOps0]; after_results; rfl
theorem reshape1_row :
    StableHlo.after (hostOps1 (F := F)) V (Proc.devRef .tc main_v2)
      = shapeCast S1x1024 (V (Proc.devRef .tc main_arg6)) shapeCasts_S1024_S1x1024 := by
  dsimp only [hostOps1]; after_results; rfl
theorem reshape2_row :
    StableHlo.after (hostOps2 (F := F)) V (Proc.devRef .tc main_v4)
      = shapeCast S1x1024 (V (Proc.devRef .tc main_arg8)) shapeCasts_S1024_S1x1024 := by
  dsimp only [hostOps2]; after_results; rfl

end Stretches

variable (m : (ℓ : Loc nD τ sig) → Buf (Elt F) ℓ) (ρ : Dev nD → PrngReg)

/-! ## A buffer nothing has written yet still holds its launch contents -/

theorem W1_keeps (c : Dev nD) (b : Ref sig .tc) (h0 : b ≠ main_v0) :
    W1 m ρ c (Proc.devRef .tc b) = W0 m ρ c (Proc.devRef .tc b) :=
  reshape0_keeps _ b h0
theorem W2_keeps (c : Dev nD) (b : Ref sig .tc) (h0 : b ≠ main_v0) (hr0 : ∀ w, Pipeline.arrRef spec0 w ≠ b) :
    W2 m ρ c (Proc.devRef .tc b) = W0 m ρ c (Proc.devRef .tc b) :=
  (W2_of_ne m ρ c b hr0).trans (W1_keeps m ρ c b h0)
theorem W3_keeps (c : Dev nD) (b : Ref sig .tc) (h0 : b ≠ main_v0) (hr0 : ∀ w, Pipeline.arrRef spec0 w ≠ b) (h1 : b ≠ main_v2) :
    W3 m ρ c (Proc.devRef .tc b) = W0 m ρ c (Proc.devRef .tc b) :=
  (reshape1_keeps _ b h1).trans (W2_keeps m ρ c b h0 hr0)
theorem W4_keeps (c : Dev nD) (b : Ref sig .tc) (h0 : b ≠ main_v0) (hr0 : ∀ w, Pipeline.arrRef spec0 w ≠ b) (h1 : b ≠ main_v2)
    (hr1 : ∀ w, Pipeline.arrRef spec1 w ≠ b) :
    W4 m ρ c (Proc.devRef .tc b) = W0 m ρ c (Proc.devRef .tc b) :=
  (W4_of_ne m ρ c b hr1).trans (W3_keeps m ρ c b h0 hr0 h1)
theorem W5_keeps (c : Dev nD) (b : Ref sig .tc) (h0 : b ≠ main_v0) (hr0 : ∀ w, Pipeline.arrRef spec0 w ≠ b) (h1 : b ≠ main_v2)
    (hr1 : ∀ w, Pipeline.arrRef spec1 w ≠ b) (h2 : b ≠ main_v4) :
    W5 m ρ c (Proc.devRef .tc b) = W0 m ρ c (Proc.devRef .tc b) :=
  (reshape2_keeps _ b h2).trans (W4_keeps m ρ c b h0 hr0 h1 hr1)

/-! ## What each pallas_call finds in the arrays it reads -/

/-- The first pallas_call's activations, weights and bias row. -/
theorem entry0_x (c : Dev nD) : V1 m ρ c main_arg0 = m ((c : Thread nD τ).loc main_arg0) :=
  W1_keeps m ρ c main_arg0 (by decide)
theorem entry0_w (c : Dev nD) : V1 m ρ c main_arg3 = m ((c : Thread nD τ).loc main_arg3) :=
  W1_keeps m ρ c main_arg3 (by decide)
theorem entry0_row (c : Dev nD) :
    V1 m ρ c main_v0 = shapeCast S1x1024 (m ((c : Thread nD τ).loc main_arg4)) shapeCasts_S1024_S1x1024 :=
  reshape0_row (W0 m ρ c)

/-- The second pallas_call's. -/
theorem entry1_x (c : Dev nD) : V3 m ρ c main_arg1 = m ((c : Thread nD τ).loc main_arg1) :=
  W3_keeps m ρ c main_arg1 (by decide) (by decide) (by decide)
theorem entry1_w (c : Dev nD) : V3 m ρ c main_arg5 = m ((c : Thread nD τ).loc main_arg5) :=
  W3_keeps m ρ c main_arg5 (by decide) (by decide) (by decide)
theorem entry1_row (c : Dev nD) :
    V3 m ρ c main_v2 = shapeCast S1x1024 (m ((c : Thread nD τ).loc main_arg6)) shapeCasts_S1024_S1x1024 :=
  (reshape1_row (W2 m ρ c)).trans
    (congrArg (fun y => shapeCast S1x1024 y shapeCasts_S1024_S1x1024) (W2_keeps m ρ c main_arg6 (by decide) (by decide)))

/-- The third pallas_call's. -/
theorem entry2_x (c : Dev nD) : V5 m ρ c main_arg2 = m ((c : Thread nD τ).loc main_arg2) :=
  W5_keeps m ρ c main_arg2 (by decide) (by decide) (by decide) (by decide) (by decide)
theorem entry2_w (c : Dev nD) : V5 m ρ c main_arg7 = m ((c : Thread nD τ).loc main_arg7) :=
  W5_keeps m ρ c main_arg7 (by decide) (by decide) (by decide) (by decide) (by decide)
theorem entry2_row (c : Dev nD) :
    V5 m ρ c main_v4 = shapeCast S1x1024 (m ((c : Thread nD τ).loc main_arg8)) shapeCasts_S1024_S1x1024 :=
  (reshape2_row (W4 m ρ c)).trans
    (congrArg (fun y => shapeCast S1x1024 y shapeCasts_S1024_S1x1024)
      (W4_keeps m ρ c main_arg8 (by decide) (by decide) (by decide) (by decide)))

/-! ## What the result arrays hold at the return -/

/-- The first result array: what the first pallas_call's write-backs left, untouched by everything after. -/
theorem result0 (c : Dev nD) : W6 m ρ c (Proc.devRef .tc main_v1) = (dat0 (V1 m ρ) c).arrAt 3 cfg0.N :=
  (W6_of_ne m ρ c main_v1 (by decide)).trans
    ((reshape2_keeps (W4 m ρ c) main_v1 (by decide)).trans
      ((W4_of_ne m ρ c main_v1 (by decide)).trans
        ((reshape1_keeps (W2 m ρ c) main_v1 (by decide)).trans (W2_arr m ρ c 3))))
/-- The second: the second pallas_call's. -/
theorem result1 (c : Dev nD) : W6 m ρ c (Proc.devRef .tc main_v3) = (dat1 (V3 m ρ) c).arrAt 3 cfg1.N :=
  (W6_of_ne m ρ c main_v3 (by decide)).trans
    ((reshape2_keeps (W4 m ρ c) main_v3 (by decide)).trans (W4_arr m ρ c 3))
/-- The third: the third pallas_call's. -/
theorem result2 (c : Dev nD) : W6 m ρ c (Proc.devRef .tc main_v5) = (dat2 (V5 m ρ) c).arrAt 3 cfg2.N :=
  W6_arr m ρ c 3

end Cert.KernelIdeal.Boundaries

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.HeadSplitSpec.lean ====
/-
  The mathematics of this certificate, stated once with no program in sight.

  A projection followed by a split into heads: from an activation array x : [4, 4096, 1024], a weight matrix
  W : [1024, 1024] and a bias β of 1024 numbers, the result array of shape [4, 16, 4096, 64] holds at (b, h, s, d)

      (Σ_{k < 1024} x[b, s, k] · W[k, 64·h + d]) + β[64·h + d]

  — row s of batch b times column 64·h + d of W, plus that column's bias. Head h, feature d of the result is column
  64·h + d of the plain [4096, 1024] projection: the reshape to 16 heads of 64 features and the exchange of the head
  and sequence axes move entries and compute nothing. Over the extended reals the sum is Mathlib's finite sum over
  `Fin 1024` and the one addition is the extended reals' own, so the formula is meaningful for every input, the
  infinities included, and nothing below asks the inputs to be finite.
-/
import Idealize.ShloMosaic.PureOps.Ideal
import Idealize.ShloMosaic.Lib.ValueIdx

noncomputable section

namespace Cert.HeadSplit

open Idealize.ShloMosaic Idealize.ShloMosaic.ValueIdx

/-- The column of the [·, 1024] projection that head `h`, feature `d` reads: 64·h + d. -/
def col (h : Fin 16) (d : Fin 64) : Fin 1024 :=
  ⟨h.val * 64 + d.val, by have := h.isLt; have := d.isLt; omega⟩

theorem col_val (h : Fin 16) (d : Fin 64) : (col h d).val = h.val * 64 + d.val := rfl

/-- The activations' shape, the weights' and the result's. -/
abbrev Sx : Shape := ⟨3, ![4, 4096, 1024]⟩
abbrev Sw : Shape := ⟨2, ![1024, 1024]⟩
abbrev So : Shape := ⟨4, ![4, 16, 4096, 64]⟩

/-- The projected, head-split array at coordinates (b, h, s, d). -/
def projAt (x : Sx.Idx → EReal) (W : Sw.Idx → EReal) (β : Fin 1024 → EReal)
    (b : Fin 4) (h : Fin 16) (s : Fin 4096) (d : Fin 64) : EReal :=
  (∑ k : Fin 1024, x (ix3 b s k) * W (ix2 k (col h d))) + β (col h d)

/-- The projected, head-split array: `projAt` at an index's four coordinates. -/
def proj (x : Sx.Idx → EReal) (W : Sw.Idx → EReal) (β : Fin 1024 → EReal) : So.Idx → EReal := fun j =>
  projAt x W β ⟨(j 0).val, (j 0).isLt⟩ ⟨(j 1).val, (j 1).isLt⟩ ⟨(j 2).val, (j 2).isLt⟩ ⟨(j 3).val, (j 3).isLt⟩

theorem proj_ix4 (x : Sx.Idx → EReal) (W : Sw.Idx → EReal) (β : Fin 1024 → EReal)
    (b : Fin 4) (h : Fin 16) (s : Fin 4096) (d : Fin 64) :
    proj x W β (ix4 b h s d) = projAt x W β b h s d := rfl

/-- The projected, head-split array depends only on the three arrays it is made from. -/
theorem proj_congr {x x' : Sx.Idx → EReal} {W W' : Sw.Idx → EReal} {β β' : Fin 1024 → EReal}
    (hx : x = x') (hW : W = W') (hβ : β = β') : proj x W β = proj x' W' β' := by
  subst hx hW hβ; rfl

end Cert.HeadSplit

end
-- ==== Proof.BodyEntries.lean ====
/-
  What the kernel body stores, read at one entry.

  At a grid point the body holds a [1, 512, 1024] block of activations (one batch, 512 consecutive rows), the whole
  weight matrix and the bias as a [1, 1024] row. It multiplies the block, viewed [512, 1024], by the weights on the
  matrix unit into a zero accumulator (the roundings to the narrower format on the way in are the identity over the
  extended reals), adds the bias row to every row, views the [512, 1024] result as [512, 16, 64], exchanges the first two
  axes and stores the [16, 512, 64] array as a [1, 16, 512, 64] block. So the stored block at (0, h, p, d) is

      (Σ_{k < 1024} block[0, p, k] · W[k, 64·h + d]) + bias[0, 64·h + d].

  The three pallas_calls of the program run the same body; their three stored-value terms are one term.
-/
import proofs.«135688_j85753317032126_2_alg».proof.Proof.Gen.KernelIdeal.Skeleton
import proofs.«135688_j85753317032126_2_alg».proof.Proof.LibMatmulNN
import proofs.«135688_j85753317032126_2_alg».proof.Proof.HeadSplitSpec
import Idealize.ShloMosaic.Lib.Pipeline.Value
import Idealize.ShloMosaic.Lib.ValueIdx

noncomputable section

namespace Cert.KernelIdeal.BodyEntries

open Cert.KernelIdeal Cert.KernelIdeal.Gen Cert.HeadSplit
open Idealize.ShloMosaic Idealize.ShloMosaic.ValueIdx

/-- The block of activations viewed without its leading unit axis: entry (p, k) is entry (0, p, k). -/
theorem rows_entry (x0 : S1x512x1024.Idx → EReal) (p : Fin 512) (k : Fin 1024) :
    shapeCast S512x1024 x0 shapeCasts_S1x512x1024_S512x1024 (ix2 p k) = x0 (ix3 (0 : Fin 1) p k) :=
  shapeCast_apply x0 shapeCasts_S1x512x1024_S512x1024 (ix2 p k) (ix3 (0 : Fin 1) p k) (by
    rw [Shape.rowMajor_val_three, Shape.rowMajor_val_two]
    show ((0 : Fin 1).val * 512 + p.val) * 1024 + k.val = p.val * 1024 + k.val
    simp)

/-- The bias row spread over 512 rows: entry (p, n) is the row's entry (0, n). -/
theorem bias_entry (x2 : S1x1024.Idx → EReal) (p : Fin 512) (n : Fin 1024) :
    broadcastTo S512x1024 (shapeCast S1x1024 x2 shapeCasts_S1x1024_S1x1024) broadcasts_S1x1024_S512x1024 (ix2 p n)
      = x2 (ix2 (0 : Fin 1) n) := by
  rw [shapeCast_self]
  exact broadcastTo_apply x2 broadcasts_S1x1024_S512x1024 (ix2 p n) (ix2 (0 : Fin 1) n) (fun a => by
    match a with
    | ⟨0, _⟩ => show (0 : Fin 1).val = if (1 : Nat) = 1 then 0 else p.val; rw [if_pos rfl]; rfl
    | ⟨1, _⟩ => show n.val = if (1024 : Nat) = 1 then 0 else n.val; rw [if_neg (by decide)])

/-- A [512, 1024] array viewed as 16 heads of 64 features: entry (p, h, d) is entry (p, 64·h + d). -/
theorem heads_entry (y : S512x1024.Idx → EReal) (p : Fin 512) (h : Fin 16) (d : Fin 64) :
    shapeCast S512x16x64 y shapeCasts_S512x1024_S512x16x64 (ix3 p h d) = y (ix2 p (col h d)) :=
  shapeCast_apply y shapeCasts_S512x1024_S512x16x64 (ix3 p h d) (ix2 p (col h d)) (by
    rw [Shape.rowMajor_val_two, Shape.rowMajor_val_three]
    show p.val * 1024 + (h.val * 64 + d.val) = (p.val * 16 + h.val) * 64 + d.val
    omega)

/-- The exchange of the row axis and the head axis: entry (h, p, d) of the result is entry (p, h, d). -/
theorem swap_entry (y : S512x16x64.Idx → EReal) (h : Fin 16) (p : Fin 512) (d : Fin 64) :
    transpose S16x512x64 [1, 0, 2] y transposes_S512x16x64_p1_0_2_S16x512x64 (ix3 h p d) = y (ix3 p h d) :=
  transpose_apply [1, 0, 2] y transposes_S512x16x64_p1_0_2_S16x512x64 (ix3 h p d) (ix3 p h d) (fun b => by
    match b with
    | ⟨0, _⟩ => rfl
    | ⟨1, _⟩ => rfl
    | ⟨2, _⟩ => rfl)

/-- A [16, 512, 64] array stored as a [1, 16, 512, 64] block: entry (0, h, p, d) is entry (h, p, d). -/
theorem block_entry (y : S16x512x64.Idx → EReal) (h : Fin 16) (p : Fin 512) (d : Fin 64) :
    shapeCast S1x16x512x64 y shapeCasts_S16x512x64_S1x16x512x64 (ix4 (0 : Fin 1) h p d) = y (ix3 h p d) :=
  shapeCast_apply y shapeCasts_S16x512x64_S1x16x512x64 (ix4 (0 : Fin 1) h p d) (ix3 h p d) (by
    rw [Shape.rowMajor_val_three, Shape.rowMajor_val_four]
    show (h.val * 512 + p.val) * 64 + d.val = (((0 : Fin 1).val * 16 + h.val) * 512 + p.val) * 64 + d.val
    simp)

/-- The product on the matrix unit into zeros, at entry (p, n): row p of the left operand times column n of the right. -/
theorem product_entry (a : FVec Ideal S512x1024 .bf16) (w : FVec Ideal S1024x1024 .bf16) (p : Fin 512) (n : Fin 1024) :
    matmul dot_S512x1024_S1024x1024_S512x1024_1_0_0_1_n_n none a w (constant (F := Ideal) S512x1024 .f32 0x00000000#32) (ix2 p n)
      = ∑ k : Fin 1024, a (ix2 p k) * w (ix2 k n) :=
  Cert.MatmulNN.matmul_zero_apply (M := 512) (K := 1024) (N := 1024) dot_S512x1024_S1024x1024_S512x1024_1_0_0_1_n_n rfl none a w p n

/-- THE STORED BLOCK AT AN ENTRY: (0, h, p, d) holds row p of the activation block times column 64·h + d of the weights,
    plus the bias at 64·h + d. -/
theorem stored_entry (x0 : Vec Ideal S1x512x1024 .f32) (x1 : Vec Ideal S1024x1024 .f32) (x2 : Vec Ideal S1x1024 .f32)
    (h : Fin 16) (p : Fin 512) (d : Fin 64) :
    k0_pay1 (F := Ideal) x0 x1 x2 (ix4 (0 : Fin 1) h p d)
      = (∑ k : Fin 1024, x0 (ix3 (0 : Fin 1) p k) * x1 (ix2 k (col h d))) + x2 (ix2 (0 : Fin 1) (col h d)) := by
  unfold k0_pay1
  refine (block_entry _ h p d).trans ?_
  refine (swap_entry _ h p d).trans ?_
  refine (heads_entry _ p h d).trans ?_
  refine (addf_apply _ _ _).trans ?_
  refine congrArg₂ (· + ·) ?_ (bias_entry x2 p (col h d))
  refine (product_entry _ _ p (col h d)).trans ?_
  refine Finset.sum_congr rfl fun k _ => ?_
  exact congrArg (· * x1 (ix2 k (col h d))) (rows_entry x0 p k)

/-- The same at any index of the block: its leading coordinate ranges over one value. -/
theorem stored_apply (x0 : Vec Ideal S1x512x1024 .f32) (x1 : Vec Ideal S1024x1024 .f32) (x2 : Vec Ideal S1x1024 .f32)
    (y : S1x16x512x64.Idx) :
    k0_pay1 (F := Ideal) x0 x1 x2 y
      = (∑ k : Fin 1024, x0 (ix3 (0 : Fin 1) (⟨(y 2).val, (y 2).isLt⟩ : Fin 512) k)
            * x1 (ix2 k (col ⟨(y 1).val, (y 1).isLt⟩ ⟨(y 3).val, (y 3).isLt⟩)))
          + x2 (ix2 (0 : Fin 1) (col ⟨(y 1).val, (y 1).isLt⟩ ⟨(y 3).val, (y 3).isLt⟩)) := by
  have hy : y = ix4 (0 : Fin 1) (⟨(y 1).val, (y 1).isLt⟩ : Fin 16) (⟨(y 2).val, (y 2).isLt⟩ : Fin 512) (⟨(y 3).val, (y 3).isLt⟩ : Fin 64) :=
    funext fun a => Fin.ext (by
      match a with
      | ⟨0, _⟩ => have h0 : (y 0).val < 1 := (y 0).isLt; show (y 0).val = 0; omega
      | ⟨1, _⟩ => rfl
      | ⟨2, _⟩ => rfl
      | ⟨3, _⟩ => rfl)
  exact (congrArg (k0_pay1 (F := Ideal) x0 x1 x2) hy).trans (stored_entry x0 x1 x2 _ _ _)

/-- The second and third pallas_call store the same term of their loads as the first. -/
theorem stored1_eq (x0 : Vec Ideal S1x512x1024 .f32) (x1 : Vec Ideal S1024x1024 .f32) (x2 : Vec Ideal S1x1024 .f32) :
    k1_pay1 (F := Ideal) x0 x1 x2 = k0_pay1 (F := Ideal) x0 x1 x2 := rfl
theorem stored2_eq (x0 : Vec Ideal S1x512x1024 .f32) (x1 : Vec Ideal S1024x1024 .f32) (x2 : Vec Ideal S1x1024 .f32) :
    k2_pay1 (F := Ideal) x0 x1 x2 = k0_pay1 (F := Ideal) x0 x1 x2 := rfl

end Cert.KernelIdeal.BodyEntries

end
-- ==== Proof.Region0.lean ====
/-
  The first pallas_call's result array, as one function of the arrays it reads.

  The grid is 4 × 8: point (i, j) takes rows 512·j … 512·j + 511 of batch i of the activations, the whole weight matrix
  and the whole bias row, and writes back the [1, 16, 512, 64] block of the result at batch i, all 16 heads, rows
  512·j … 512·j + 511, all 64 features. By the body's stored value (row p of the activation block times a column of the
  weights, plus the bias) the block written back at a point is that point's block of the projected, head-split array
  of the WHOLE input arrays: row p of the point's activation block is row 512·j + p of batch i. The 32 blocks tile the
  result array — the block of (i, j) holds exactly the indices with batch i and row in [512·j, 512·j + 512) — so every
  index is written by the point (b, s / 512), and the array ends holding the projected, head-split array.
-/
import proofs.«135688_j85753317032126_2_alg».proof.Proof.Gen.KernelIdeal.Frame
import proofs.«135688_j85753317032126_2_alg».proof.Proof.BodyEntries

set_option maxRecDepth 16384

noncomputable section

namespace Cert.KernelIdeal.Region0

open Cert.KernelIdeal Cert.KernelIdeal.Gen Cert.KernelIdeal.BodyEntries Cert.HeadSplit
open Idealize.ShloMosaic Idealize.ShloMosaic.TcCoe Idealize.ShloMosaic.ValueIdx Idealize.SL.Sem
open Idealize.ShloMosaic.Pipeline (Dat Cfg Window)

-- the core's buffer contents when the pallas_call is entered
variable (V : (c : Dev nD) → (b : Ref sig .tc) → Buf (Elt Ideal) ((c : Thread nD τ).loc b))

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-- The block index maps, decided over the 32 grid points: the activation block sits at the result block's batch and
    row-block; the weights and the bias row are always block 0; the result block spans all heads and features. -/
theorem index_facts : ∀ t : Fin cfg0.N,
    win0_0.index t (0 : Fin 3) = win0_3.index t (0 : Fin 4)
    ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 4) = 0 ∧ win0_3.index t (3 : Fin 4) = 0
    ∧ win0_3.index t (0 : Fin 4) < 4 ∧ win0_3.index t (2 : Fin 4) < 8 :=
  (by decide +kernel : ∀ t : Fin grid0.N, _)

/-- Every (batch, row-block) pair is some grid point's. -/
theorem index_onto : ∀ (q0 : Fin 4) (q2 : Fin 8), ∃ t : Fin cfg0.N, win0_3.index t = ![q0.val, 0, q2.val, 0] :=
  (by decide +kernel : ∀ (q0 : Fin 4) (q2 : Fin 8), ∃ t : Fin grid0.N, win0_3.index t = ![q0.val, 0, q2.val, 0])

/-- The projected, head-split array of the arrays the pallas_call reads, as it finds them. -/
abbrev whole (c : Dev nD) : S4x16x4096x64.Idx → EReal :=
  proj (V c main_arg0) (V c main_arg3) (fun n => V c main_v0 (ix2 (0 : Fin 1) n))

/-- WHAT POINT `t` WRITES BACK is block `t` of the projected, head-split array. -/
theorem flushed_eq (c : Dev nD) (t : Fin cfg0.N) :
    (dat0 V c).flushed 3 t = ((cfg0.win 3).blk t).view.read (Elt Ideal) (whole V c) := by
  show (cfg0.win 3).cut (grid0.coords t) ((dat0 V c).after 3 t) = _
  rw [after0_3]
  unfold out0_3
  rw [View.canon_unit_zero zeros4]
  simp only [View.ld_unit_zero (S := S1x512x1024) zeros3, View.ld_unit_zero (S := S1024x1024) zeros2,
    View.ld_unit_zero (S := S1x1024) zeros2]
  obtain ⟨e0, e1, e2, e3, e4, e5, e6, e7, e8, e9, e10⟩ := index_facts t
  funext y
  have hy0 : (y 0).val < 1 := (y 0).isLt
  have hy1 : (y 1).val < 16 := (y 1).isLt
  have hy2 : (y 2).val < 512 := (y 2).isLt
  have hy3 : (y 3).val < 64 := (y 3).isLt
  refine (stored_apply (iblk0 V c 0 t) (iblk0 V c 1 t) (iblk0 V c 2 t) y).trans ?_
  -- the index of the array that entry `y` of the block is
  have hb : (((cfg0.win 3).blk t).view.emb y 0).val = win0_3.index t (0 : Fin 4) * 1 + 1 * (y 0).val := rfl
  have hh : (((cfg0.win 3).blk t).view.emb y 1).val = win0_3.index t (1 : Fin 4) * 16 + 1 * (y 1).val := rfl
  have hs : (((cfg0.win 3).blk t).view.emb y 2).val = win0_3.index t (2 : Fin 4) * 512 + 1 * (y 2).val := rfl
  have hd : (((cfg0.win 3).blk t).view.emb y 3).val = win0_3.index t (3 : Fin 4) * 64 + 1 * (y 3).val := rfl
  show _ = projAt (V c main_arg0) (V c main_arg3) (fun n => V c main_v0 (ix2 (0 : Fin 1) n))
      ⟨(((cfg0.win 3).blk t).view.emb y 0).val, (((cfg0.win 3).blk t).view.emb y 0).isLt⟩
      ⟨(((cfg0.win 3).blk t).view.emb y 1).val, (((cfg0.win 3).blk t).view.emb y 1).isLt⟩
      ⟨(((cfg0.win 3).blk t).view.emb y 2).val, (((cfg0.win 3).blk t).view.emb y 2).isLt⟩
      ⟨(((cfg0.win 3).blk t).view.emb y 3).val, (((cfg0.win 3).blk t).view.emb y 3).isLt⟩
  unfold projAt
  have hcol : (col ⟨(((cfg0.win 3).blk t).view.emb y 1).val, (((cfg0.win 3).blk t).view.emb y 1).isLt⟩
        ⟨(((cfg0.win 3).blk t).view.emb y 3).val, (((cfg0.win 3).blk t).view.emb y 3).isLt⟩)
      = col ⟨(y 1).val, (y 1).isLt⟩ ⟨(y 3).val, (y 3).isLt⟩ := Fin.ext (by
    rw [col_val, col_val]
    show (((cfg0.win 3).blk t).view.emb y 1).val * 64 + (((cfg0.win 3).blk t).view.emb y 3).val = (y 1).val * 64 + (y 3).val
    rw [hh, hd]; omega)
  rw [hcol]
  refine congrArg₂ (· + ·) (Finset.sum_congr rfl fun k _ => congrArg₂ (· * ·) ?_ ?_) ?_
  · -- the activation block's row is the array's row 512·j + p of batch i
    show V c main_arg0 (((cfg0.win 0).blk t).view.emb (ix3 (0 : Fin 1) (⟨(y 2).val, (y 2).isLt⟩ : Fin 512) k)) = _
    refine congrArg (V c main_arg0) (funext fun a => Fin.ext ?_)
    match a with
    | ⟨0, _⟩ =>
      show win0_0.index t (0 : Fin 3) * 1 + 1 * (0 : Fin 1).val = (((cfg0.win 3).blk t).view.emb y 0).val
      rw [hb]; show win0_0.index t (0 : Fin 3) * 1 + 1 * 0 = _; omega
    | ⟨1, _⟩ =>
      show win0_0.index t (1 : Fin 3) * 512 + 1 * (y 2).val = (((cfg0.win 3).blk t).view.emb y 2).val
      rw [hs]; omega
    | ⟨2, _⟩ =>
      show win0_0.index t (2 : Fin 3) * 1024 + 1 * k.val = k.val
      omega
  · -- the weights are read whole
    show V c main_arg3 (((cfg0.win 1).blk t).view.emb (ix2 k (col ⟨(y 1).val, (y 1).isLt⟩ ⟨(y 3).val, (y 3).isLt⟩))) = _
    refine congrArg (V c main_arg3) (funext fun a => Fin.ext ?_)
    match a with
    | ⟨0, _⟩ => show win0_1.index t (0 : Fin 2) * 1024 + 1 * k.val = k.val; omega
    | ⟨1, _⟩ =>
      show win0_1.index t (1 : Fin 2) * 1024 + 1 * (col ⟨(y 1).val, (y 1).isLt⟩ ⟨(y 3).val, (y 3).isLt⟩).val
        = (col ⟨(y 1).val, (y 1).isLt⟩ ⟨(y 3).val, (y 3).isLt⟩).val
      omega
  · -- and so is the bias row
    show V c main_v0 (((cfg0.win 2).blk t).view.emb (ix2 (0 : Fin 1) (col ⟨(y 1).val, (y 1).isLt⟩ ⟨(y 3).val, (y 3).isLt⟩))) = _
    refine congrArg (V c main_v0) (funext fun a => Fin.ext ?_)
    match a with
    | ⟨0, _⟩ => show win0_2.index t (0 : Fin 2) * 1 + 1 * (0 : Fin 1).val = (0 : Fin 1).val; show win0_2.index t (0 : Fin 2) * 1 + 1 * 0 = 0; omega
    | ⟨1, _⟩ =>
      show win0_2.index t (1 : Fin 2) * 1024 + 1 * (col ⟨(y 1).val, (y 1).isLt⟩ ⟨(y 3).val, (y 3).isLt⟩).val
        = (col ⟨(y 1).val, (y 1).isLt⟩ ⟨(y 3).val, (y 3).isLt⟩).val
      omega

/-- An index of the result array is in point `t`'s block iff each coordinate is in the block's range on its axis. -/
theorem mem_blk (t : Fin cfg0.N) (i : S4x16x4096x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v1).slice (win0_3.rect t)).set ↔ _
  rw [View.set_slice_whole, Rect.mem_set_unit]
  exact Iff.rfl

/-- EVERY INDEX IS WRITTEN: (b, h, s, d) lies in the block of the point with batch b and row-block s / 512. -/
theorem covered (i : S4x16x4096x64.Idx) :
    ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, ht⟩ := index_onto ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- THE RESULT ARRAY after the pallas_call: the projected, head-split array of what it read. -/
theorem final (c : Dev nD) : (dat0 V c).arrAt 3 cfg0.N = whole V c :=
  (dat0 V c).arrAt_eq_of_cover 3 (whole V c) (fun t _ => flushed_eq V c t) (covered)

end Cert.KernelIdeal.Region0

end
-- ==== Proof.Region1.lean ====
/-
  The second pallas_call's result array, as one function of the arrays it reads.

  The grid is 4 × 8: point (i, j) takes rows 512·j … 512·j + 511 of batch i of the activations, the whole weight matrix
  and the whole bias row, and writes back the [1, 16, 512, 64] block of the result at batch i, all 16 heads, rows
  512·j … 512·j + 511, all 64 features. By the body's stored value (row p of the activation block times a column of the
  weights, plus the bias) the block written back at a point is that point's block of the projected, head-split array
  of the WHOLE input arrays: row p of the point's activation block is row 512·j + p of batch i. The 32 blocks tile the
  result array — the block of (i, j) holds exactly the indices with batch i and row in [512·j, 512·j + 512) — so every
  index is written by the point (b, s / 512), and the array ends holding the projected, head-split array.
-/
import proofs.«135688_j85753317032126_2_alg».proof.Proof.Gen.KernelIdeal.Frame
import proofs.«135688_j85753317032126_2_alg».proof.Proof.BodyEntries

set_option maxRecDepth 16384

noncomputable section

namespace Cert.KernelIdeal.Region1

open Cert.KernelIdeal Cert.KernelIdeal.Gen Cert.KernelIdeal.BodyEntries Cert.HeadSplit
open Idealize.ShloMosaic Idealize.ShloMosaic.TcCoe Idealize.ShloMosaic.ValueIdx Idealize.SL.Sem
open Idealize.ShloMosaic.Pipeline (Dat Cfg Window)

-- the core's buffer contents when the pallas_call is entered
variable (V : (c : Dev nD) → (b : Ref sig .tc) → Buf (Elt Ideal) ((c : Thread nD τ).loc b))

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-- The block index maps, decided over the 32 grid points: the activation block sits at the result block's batch and
    row-block; the weights and the bias row are always block 0; the result block spans all heads and features. -/
theorem index_facts : ∀ t : Fin cfg1.N,
    win1_0.index t (0 : Fin 3) = win1_3.index t (0 : Fin 4)
    ∧ win1_0.index t (1 : Fin 3) = win1_3.index t (2 : Fin 4)
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 4) = 0 ∧ win1_3.index t (3 : Fin 4) = 0
    ∧ win1_3.index t (0 : Fin 4) < 4 ∧ win1_3.index t (2 : Fin 4) < 8 :=
  (by decide +kernel : ∀ t : Fin grid1.N, _)

/-- Every (batch, row-block) pair is some grid point's. -/
theorem index_onto : ∀ (q0 : Fin 4) (q2 : Fin 8), ∃ t : Fin cfg1.N, win1_3.index t = ![q0.val, 0, q2.val, 0] :=
  (by decide +kernel : ∀ (q0 : Fin 4) (q2 : Fin 8), ∃ t : Fin grid1.N, win1_3.index t = ![q0.val, 0, q2.val, 0])

/-- The projected, head-split array of the arrays the pallas_call reads, as it finds them. -/
abbrev whole (c : Dev nD) : S4x16x4096x64.Idx → EReal :=
  proj (V c main_arg1) (V c main_arg5) (fun n => V c main_v2 (ix2 (0 : Fin 1) n))

/-- WHAT POINT `t` WRITES BACK is block `t` of the projected, head-split array. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero zeros4]
  simp only [View.ld_unit_zero (S := S1x512x1024) zeros3, View.ld_unit_zero (S := S1024x1024) zeros2,
    View.ld_unit_zero (S := S1x1024) zeros2]
  obtain ⟨e0, e1, e2, e3, e4, e5, e6, e7, e8, e9, e10⟩ := index_facts t
  funext y
  have hy0 : (y 0).val < 1 := (y 0).isLt
  have hy1 : (y 1).val < 16 := (y 1).isLt
  have hy2 : (y 2).val < 512 := (y 2).isLt
  have hy3 : (y 3).val < 64 := (y 3).isLt
  refine ((congrFun (stored1_eq (iblk1 V c 0 t) (iblk1 V c 1 t) (iblk1 V c 2 t)) y).trans (stored_apply (iblk1 V c 0 t) (iblk1 V c 1 t) (iblk1 V c 2 t) y)).trans ?_
  -- the index of the array that entry `y` of the block is
  have hb : (((cfg1.win 3).blk t).view.emb y 0).val = win1_3.index t (0 : Fin 4) * 1 + 1 * (y 0).val := rfl
  have hh : (((cfg1.win 3).blk t).view.emb y 1).val = win1_3.index t (1 : Fin 4) * 16 + 1 * (y 1).val := rfl
  have hs : (((cfg1.win 3).blk t).view.emb y 2).val = win1_3.index t (2 : Fin 4) * 512 + 1 * (y 2).val := rfl
  have hd : (((cfg1.win 3).blk t).view.emb y 3).val = win1_3.index t (3 : Fin 4) * 64 + 1 * (y 3).val := rfl
  show _ = projAt (V c main_arg1) (V c main_arg5) (fun n => V c main_v2 (ix2 (0 : Fin 1) n))
      ⟨(((cfg1.win 3).blk t).view.emb y 0).val, (((cfg1.win 3).blk t).view.emb y 0).isLt⟩
      ⟨(((cfg1.win 3).blk t).view.emb y 1).val, (((cfg1.win 3).blk t).view.emb y 1).isLt⟩
      ⟨(((cfg1.win 3).blk t).view.emb y 2).val, (((cfg1.win 3).blk t).view.emb y 2).isLt⟩
      ⟨(((cfg1.win 3).blk t).view.emb y 3).val, (((cfg1.win 3).blk t).view.emb y 3).isLt⟩
  unfold projAt
  have hcol : (col ⟨(((cfg1.win 3).blk t).view.emb y 1).val, (((cfg1.win 3).blk t).view.emb y 1).isLt⟩
        ⟨(((cfg1.win 3).blk t).view.emb y 3).val, (((cfg1.win 3).blk t).view.emb y 3).isLt⟩)
      = col ⟨(y 1).val, (y 1).isLt⟩ ⟨(y 3).val, (y 3).isLt⟩ := Fin.ext (by
    rw [col_val, col_val]
    show (((cfg1.win 3).blk t).view.emb y 1).val * 64 + (((cfg1.win 3).blk t).view.emb y 3).val = (y 1).val * 64 + (y 3).val
    rw [hh, hd]; omega)
  rw [hcol]
  refine congrArg₂ (· + ·) (Finset.sum_congr rfl fun k _ => congrArg₂ (· * ·) ?_ ?_) ?_
  · -- the activation block's row is the array's row 512·j + p of batch i
    show V c main_arg1 (((cfg1.win 0).blk t).view.emb (ix3 (0 : Fin 1) (⟨(y 2).val, (y 2).isLt⟩ : Fin 512) k)) = _
    refine congrArg (V c main_arg1) (funext fun a => Fin.ext ?_)
    match a with
    | ⟨0, _⟩ =>
      show win1_0.index t (0 : Fin 3) * 1 + 1 * (0 : Fin 1).val = (((cfg1.win 3).blk t).view.emb y 0).val
      rw [hb]; show win1_0.index t (0 : Fin 3) * 1 + 1 * 0 = _; omega
    | ⟨1, _⟩ =>
      show win1_0.index t (1 : Fin 3) * 512 + 1 * (y 2).val = (((cfg1.win 3).blk t).view.emb y 2).val
      rw [hs]; omega
    | ⟨2, _⟩ =>
      show win1_0.index t (2 : Fin 3) * 1024 + 1 * k.val = k.val
      omega
  · -- the weights are read whole
    show V c main_arg5 (((cfg1.win 1).blk t).view.emb (ix2 k (col ⟨(y 1).val, (y 1).isLt⟩ ⟨(y 3).val, (y 3).isLt⟩))) = _
    refine congrArg (V c main_arg5) (funext fun a => Fin.ext ?_)
    match a with
    | ⟨0, _⟩ => show win1_1.index t (0 : Fin 2) * 1024 + 1 * k.val = k.val; omega
    | ⟨1, _⟩ =>
      show win1_1.index t (1 : Fin 2) * 1024 + 1 * (col ⟨(y 1).val, (y 1).isLt⟩ ⟨(y 3).val, (y 3).isLt⟩).val
        = (col ⟨(y 1).val, (y 1).isLt⟩ ⟨(y 3).val, (y 3).isLt⟩).val
      omega
  · -- and so is the bias row
    show V c main_v2 (((cfg1.win 2).blk t).view.emb (ix2 (0 : Fin 1) (col ⟨(y 1).val, (y 1).isLt⟩ ⟨(y 3).val, (y 3).isLt⟩))) = _
    refine congrArg (V c main_v2) (funext fun a => Fin.ext ?_)
    match a with
    | ⟨0, _⟩ => show win1_2.index t (0 : Fin 2) * 1 + 1 * (0 : Fin 1).val = (0 : Fin 1).val; show win1_2.index t (0 : Fin 2) * 1 + 1 * 0 = 0; omega
    | ⟨1, _⟩ =>
      show win1_2.index t (1 : Fin 2) * 1024 + 1 * (col ⟨(y 1).val, (y 1).isLt⟩ ⟨(y 3).val, (y 3).isLt⟩).val
        = (col ⟨(y 1).val, (y 1).isLt⟩ ⟨(y 3).val, (y 3).isLt⟩).val
      omega

/-- An index of the result array is in point `t`'s block iff each coordinate is in the block's range on its axis. -/
theorem mem_blk (t : Fin cfg1.N) (i : S4x16x4096x64.Idx) :
    i ∈ ((cfg1.win 3).blk t).view.set ↔ ∀ a : Fin 4, win1_3.index t a * S1x16x512x64.size a ≤ (i a).val
      ∧ (i a).val < win1_3.index t a * S1x16x512x64.size a + S1x16x512x64.size a := by
  show i ∈ ((View.whole main_v3).slice (win1_3.rect t)).set ↔ _
  rw [View.set_slice_whole, Rect.mem_set_unit]
  exact Iff.rfl

/-- EVERY INDEX IS WRITTEN: (b, h, s, d) lies in the block of the point with batch b and row-block s / 512. -/
theorem covered (i : S4x16x4096x64.Idx) :
    ∃ t : Fin cfg1.N, (cfg1.win 3).flush t = true ∧ i ∈ ((cfg1.win 3).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, ht⟩ := index_onto ⟨(i 0).val, hi0⟩ ⟨(i 2).val / 512, by omega⟩
  have q0 : win1_3.index t (0 : Fin 4) = (i 0).val := congrFun ht 0
  have q1 : win1_3.index t (1 : Fin 4) = 0 := congrFun ht 1
  have q2 : win1_3.index t (2 : Fin 4) = (i 2).val / 512 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 16 ≤ (i 1).val ∧ (i 1).val < win1_3.index t (1 : Fin 4) * 16 + 16; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-- THE RESULT ARRAY after the pallas_call: the projected, head-split array of what it read. -/
theorem final (c : Dev nD) : (dat1 V c).arrAt 3 cfg1.N = whole V c :=
  (dat1 V c).arrAt_eq_of_cover 3 (whole V c) (fun t _ => flushed_eq V c t) (covered)

end Cert.KernelIdeal.Region1

end
-- ==== Proof.Region2.lean ====
/-
  The third pallas_call's result array, as one function of the arrays it reads.

  The grid is 4 × 8: point (i, j) takes rows 512·j … 512·j + 511 of batch i of the activations, the whole weight matrix
  and the whole bias row, and writes back the [1, 16, 512, 64] block of the result at batch i, all 16 heads, rows
  512·j … 512·j + 511, all 64 features. By the body's stored value (row p of the activation block times a column of the
  weights, plus the bias) the block written back at a point is that point's block of the projected, head-split array
  of the WHOLE input arrays: row p of the point's activation block is row 512·j + p of batch i. The 32 blocks tile the
  result array — the block of (i, j) holds exactly the indices with batch i and row in [512·j, 512·j + 512) — so every
  index is written by the point (b, s / 512), and the array ends holding the projected, head-split array.
-/
import proofs.«135688_j85753317032126_2_alg».proof.Proof.Gen.KernelIdeal.Frame
import proofs.«135688_j85753317032126_2_alg».proof.Proof.BodyEntries

set_option maxRecDepth 16384

noncomputable section

namespace Cert.KernelIdeal.Region2

open Cert.KernelIdeal Cert.KernelIdeal.Gen Cert.KernelIdeal.BodyEntries Cert.HeadSplit
open Idealize.ShloMosaic Idealize.ShloMosaic.TcCoe Idealize.ShloMosaic.ValueIdx Idealize.SL.Sem
open Idealize.ShloMosaic.Pipeline (Dat Cfg Window)

-- the core's buffer contents when the pallas_call is entered
variable (V : (c : Dev nD) → (b : Ref sig .tc) → Buf (Elt Ideal) ((c : Thread nD τ).loc b))

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-- The block index maps, decided over the 32 grid points: the activation block sits at the result block's batch and
    row-block; the weights and the bias row are always block 0; the result block spans all heads and features. -/
theorem index_facts : ∀ t : Fin cfg2.N,
    win2_0.index t (0 : Fin 3) = win2_3.index t (0 : Fin 4)
    ∧ win2_0.index t (1 : Fin 3) = win2_3.index t (2 : Fin 4)
    ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 4) = 0 ∧ win2_3.index t (3 : Fin 4) = 0
    ∧ win2_3.index t (0 : Fin 4) < 4 ∧ win2_3.index t (2 : Fin 4) < 8 :=
  (by decide +kernel : ∀ t : Fin grid2.N, _)

/-- Every (batch, row-block) pair is some grid point's. -/
theorem index_onto : ∀ (q0 : Fin 4) (q2 : Fin 8), ∃ t : Fin cfg2.N, win2_3.index t = ![q0.val, 0, q2.val, 0] :=
  (by decide +kernel : ∀ (q0 : Fin 4) (q2 : Fin 8), ∃ t : Fin grid2.N, win2_3.index t = ![q0.val, 0, q2.val, 0])

/-- The projected, head-split array of the arrays the pallas_call reads, as it finds them. -/
abbrev whole (c : Dev nD) : S4x16x4096x64.Idx → EReal :=
  proj (V c main_arg2) (V c main_arg7) (fun n => V c main_v4 (ix2 (0 : Fin 1) n))

/-- WHAT POINT `t` WRITES BACK is block `t` of the projected, head-split array. -/
theorem flushed_eq (c : Dev nD) (t : Fin cfg2.N) :
    (dat2 V c).flushed 3 t = ((cfg2.win 3).blk t).view.read (Elt Ideal) (whole V c) := by
  show (cfg2.win 3).cut (grid2.coords t) ((dat2 V c).after 3 t) = _
  rw [after2_3]
  unfold out2_3
  rw [View.canon_unit_zero zeros4]
  simp only [View.ld_unit_zero (S := S1x512x1024) zeros3, View.ld_unit_zero (S := S1024x1024) zeros2,
    View.ld_unit_zero (S := S1x1024) zeros2]
  obtain ⟨e0, e1, e2, e3, e4, e5, e6, e7, e8, e9, e10⟩ := index_facts t
  funext y
  have hy0 : (y 0).val < 1 := (y 0).isLt
  have hy1 : (y 1).val < 16 := (y 1).isLt
  have hy2 : (y 2).val < 512 := (y 2).isLt
  have hy3 : (y 3).val < 64 := (y 3).isLt
  refine ((congrFun (stored2_eq (iblk2 V c 0 t) (iblk2 V c 1 t) (iblk2 V c 2 t)) y).trans (stored_apply (iblk2 V c 0 t) (iblk2 V c 1 t) (iblk2 V c 2 t) y)).trans ?_
  -- the index of the array that entry `y` of the block is
  have hb : (((cfg2.win 3).blk t).view.emb y 0).val = win2_3.index t (0 : Fin 4) * 1 + 1 * (y 0).val := rfl
  have hh : (((cfg2.win 3).blk t).view.emb y 1).val = win2_3.index t (1 : Fin 4) * 16 + 1 * (y 1).val := rfl
  have hs : (((cfg2.win 3).blk t).view.emb y 2).val = win2_3.index t (2 : Fin 4) * 512 + 1 * (y 2).val := rfl
  have hd : (((cfg2.win 3).blk t).view.emb y 3).val = win2_3.index t (3 : Fin 4) * 64 + 1 * (y 3).val := rfl
  show _ = projAt (V c main_arg2) (V c main_arg7) (fun n => V c main_v4 (ix2 (0 : Fin 1) n))
      ⟨(((cfg2.win 3).blk t).view.emb y 0).val, (((cfg2.win 3).blk t).view.emb y 0).isLt⟩
      ⟨(((cfg2.win 3).blk t).view.emb y 1).val, (((cfg2.win 3).blk t).view.emb y 1).isLt⟩
      ⟨(((cfg2.win 3).blk t).view.emb y 2).val, (((cfg2.win 3).blk t).view.emb y 2).isLt⟩
      ⟨(((cfg2.win 3).blk t).view.emb y 3).val, (((cfg2.win 3).blk t).view.emb y 3).isLt⟩
  unfold projAt
  have hcol : (col ⟨(((cfg2.win 3).blk t).view.emb y 1).val, (((cfg2.win 3).blk t).view.emb y 1).isLt⟩
        ⟨(((cfg2.win 3).blk t).view.emb y 3).val, (((cfg2.win 3).blk t).view.emb y 3).isLt⟩)
      = col ⟨(y 1).val, (y 1).isLt⟩ ⟨(y 3).val, (y 3).isLt⟩ := Fin.ext (by
    rw [col_val, col_val]
    show (((cfg2.win 3).blk t).view.emb y 1).val * 64 + (((cfg2.win 3).blk t).view.emb y 3).val = (y 1).val * 64 + (y 3).val
    rw [hh, hd]; omega)
  rw [hcol]
  refine congrArg₂ (· + ·) (Finset.sum_congr rfl fun k _ => congrArg₂ (· * ·) ?_ ?_) ?_
  · -- the activation block's row is the array's row 512·j + p of batch i
    show V c main_arg2 (((cfg2.win 0).blk t).view.emb (ix3 (0 : Fin 1) (⟨(y 2).val, (y 2).isLt⟩ : Fin 512) k)) = _
    refine congrArg (V c main_arg2) (funext fun a => Fin.ext ?_)
    match a with
    | ⟨0, _⟩ =>
      show win2_0.index t (0 : Fin 3) * 1 + 1 * (0 : Fin 1).val = (((cfg2.win 3).blk t).view.emb y 0).val
      rw [hb]; show win2_0.index t (0 : Fin 3) * 1 + 1 * 0 = _; omega
    | ⟨1, _⟩ =>
      show win2_0.index t (1 : Fin 3) * 512 + 1 * (y 2).val = (((cfg2.win 3).blk t).view.emb y 2).val
      rw [hs]; omega
    | ⟨2, _⟩ =>
      show win2_0.index t (2 : Fin 3) * 1024 + 1 * k.val = k.val
      omega
  · -- the weights are read whole
    show V c main_arg7 (((cfg2.win 1).blk t).view.emb (ix2 k (col ⟨(y 1).val, (y 1).isLt⟩ ⟨(y 3).val, (y 3).isLt⟩))) = _
    refine congrArg (V c main_arg7) (funext fun a => Fin.ext ?_)
    match a with
    | ⟨0, _⟩ => show win2_1.index t (0 : Fin 2) * 1024 + 1 * k.val = k.val; omega
    | ⟨1, _⟩ =>
      show win2_1.index t (1 : Fin 2) * 1024 + 1 * (col ⟨(y 1).val, (y 1).isLt⟩ ⟨(y 3).val, (y 3).isLt⟩).val
        = (col ⟨(y 1).val, (y 1).isLt⟩ ⟨(y 3).val, (y 3).isLt⟩).val
      omega
  · -- and so is the bias row
    show V c main_v4 (((cfg2.win 2).blk t).view.emb (ix2 (0 : Fin 1) (col ⟨(y 1).val, (y 1).isLt⟩ ⟨(y 3).val, (y 3).isLt⟩))) = _
    refine congrArg (V c main_v4) (funext fun a => Fin.ext ?_)
    match a with
    | ⟨0, _⟩ => show win2_2.index t (0 : Fin 2) * 1 + 1 * (0 : Fin 1).val = (0 : Fin 1).val; show win2_2.index t (0 : Fin 2) * 1 + 1 * 0 = 0; omega
    | ⟨1, _⟩ =>
      show win2_2.index t (1 : Fin 2) * 1024 + 1 * (col ⟨(y 1).val, (y 1).isLt⟩ ⟨(y 3).val, (y 3).isLt⟩).val
        = (col ⟨(y 1).val, (y 1).isLt⟩ ⟨(y 3).val, (y 3).isLt⟩).val
      omega

/-- An index of the result array is in point `t`'s block iff each coordinate is in the block's range on its axis. -/
theorem mem_blk (t : Fin cfg2.N) (i : S4x16x4096x64.Idx) :
    i ∈ ((cfg2.win 3).blk t).view.set ↔ ∀ a : Fin 4, win2_3.index t a * S1x16x512x64.size a ≤ (i a).val
      ∧ (i a).val < win2_3.index t a * S1x16x512x64.size a + S1x16x512x64.size a := by
  show i ∈ ((View.whole main_v5).slice (win2_3.rect t)).set ↔ _
  rw [View.set_slice_whole, Rect.mem_set_unit]
  exact Iff.rfl

/-- EVERY INDEX IS WRITTEN: (b, h, s, d) lies in the block of the point with batch b and row-block s / 512. -/
theorem covered (i : S4x16x4096x64.Idx) :
    ∃ t : Fin cfg2.N, (cfg2.win 3).flush t = true ∧ i ∈ ((cfg2.win 3).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, ht⟩ := index_onto ⟨(i 0).val, hi0⟩ ⟨(i 2).val / 512, by omega⟩
  have q0 : win2_3.index t (0 : Fin 4) = (i 0).val := congrFun ht 0
  have q1 : win2_3.index t (1 : Fin 4) = 0 := congrFun ht 1
  have q2 : win2_3.index t (2 : Fin 4) = (i 2).val / 512 := congrFun ht 2
  have q3 : win2_3.index t (3 : Fin 4) = 0 := congrFun ht 3
  refine ⟨t, flush2_3 t, ?_⟩
  rw [mem_blk]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 16 ≤ (i 1).val ∧ (i 1).val < win2_3.index t (1 : Fin 4) * 16 + 16; omega
  | ⟨2, _⟩ => show win2_3.index t (2 : Fin 4) * 512 ≤ (i 2).val ∧ (i 2).val < win2_3.index t (2 : Fin 4) * 512 + 512; omega
  | ⟨3, _⟩ => show win2_3.index t (3 : Fin 4) * 64 ≤ (i 3).val ∧ (i 3).val < win2_3.index t (3 : Fin 4) * 64 + 64; omega

/-- THE RESULT ARRAY after the pallas_call: the projected, head-split array of what it read. -/
theorem final (c : Dev nD) : (dat2 V c).arrAt 3 cfg2.N = whole V c :=
  (dat2 V c).arrAt_eq_of_cover 3 (whole V c) (fun t _ => flushed_eq V c t) (covered)

end Cert.KernelIdeal.Region2

end
-- ==== Proof.KernelValue.lean ====
/-
  What the idealized kernel program returns, as a function of its arguments.

  Each result array is traced from the return back to the launch: at the return it holds what its own pallas_call's
  write-backs left; those write-backs make it the projected, head-split array of the arrays that pallas_call read;
  and those arrays held, when it was entered, the launch contents of its activations and weights and the reshaped
  launch contents of its bias. A vector of 1024 numbers viewed as a [1, 1024] row has entry n at (0, n), so the bias the
  body adds at column 64·h + d is the bias argument's entry 64·h + d. Hence result i of the program is

      (b, h, s, d) ↦ (Σ_{k < 1024} x_i[b, s, k] · W_i[k, 64·h + d]) + bias_i[64·h + d]

  of the i-th triple of arguments, for i = 1, 2, 3.
-/
import proofs.«135688_j85753317032126_2_alg».proof.Proof.NamedRun
import proofs.«135688_j85753317032126_2_alg».proof.Proof.Boundaries
import proofs.«135688_j85753317032126_2_alg».proof.Proof.Region0
import proofs.«135688_j85753317032126_2_alg».proof.Proof.Region1
import proofs.«135688_j85753317032126_2_alg».proof.Proof.Region2

set_option maxRecDepth 16384

noncomputable section

namespace Cert.KernelIdeal.KernelValue

open Cert.KernelIdeal Cert.KernelIdeal.Gen Cert.KernelIdeal.Boundaries Cert.KernelIdeal.NamedRun Cert.HeadSplit
open Idealize.ShloMosaic Idealize.ShloMosaic.TcCoe Idealize.ShloMosaic.ValueIdx Idealize.SL.Sem

variable (m : (ℓ : Loc nD τ sig) → Buf (Elt Ideal) ℓ) (ρ : Dev nD → PrngReg)

/-- A vector of 1024 numbers viewed as a [1, 1024] row: entry (0, n) is entry n. -/
theorem row_entry (b : S1024.Idx → EReal) (n : Fin 1024) :
    shapeCast S1x1024 b shapeCasts_S1024_S1x1024 (ix2 (0 : Fin 1) n) = b (ix1 n) :=
  shapeCast_apply b shapeCasts_S1024_S1x1024 (ix2 (0 : Fin 1) n) (ix1 n) (by
    rw [Shape.rowMajor_val_one, Shape.rowMajor_val_two]
    show n.val = (0 : Fin 1).val * 1024 + n.val
    simp)

/-- The first result array at the return. -/
theorem value0 (c : Dev nD) : W6 m ρ c (Proc.devRef .tc main_v1) = proj (m ((c : Thread nD τ).loc main_arg0)) (m ((c : Thread nD τ).loc main_arg3)) (fun n => (m ((c : Thread nD τ).loc main_arg4)) (ix1 n)) :=
  (result0 m ρ c).trans ((Region0.final (V1 m ρ) c).trans
    (proj_congr (entry0_x m ρ c) (entry0_w m ρ c)
      (funext fun n => (congrFun (entry0_row m ρ c) (ix2 (0 : Fin 1) n)).trans (row_entry _ n))))
/-- The second. -/
theorem value1 (c : Dev nD) : W6 m ρ c (Proc.devRef .tc main_v3) = proj (m ((c : Thread nD τ).loc main_arg1)) (m ((c : Thread nD τ).loc main_arg5)) (fun n => (m ((c : Thread nD τ).loc main_arg6)) (ix1 n)) :=
  (result1 m ρ c).trans ((Region1.final (V3 m ρ) c).trans
    (proj_congr (entry1_x m ρ c) (entry1_w m ρ c)
      (funext fun n => (congrFun (entry1_row m ρ c) (ix2 (0 : Fin 1) n)).trans (row_entry _ n))))
/-- The third. -/
theorem value2 (c : Dev nD) : W6 m ρ c (Proc.devRef .tc main_v5) = proj (m ((c : Thread nD τ).loc main_arg2)) (m ((c : Thread nD τ).loc main_arg7)) (fun n => (m ((c : Thread nD τ).loc main_arg8)) (ix1 n)) :=
  (result2 m ρ c).trans ((Region2.final (V5 m ρ) c).trans
    (proj_congr (entry2_x m ρ c) (entry2_w m ρ c)
      (funext fun n => (congrFun (entry2_row m ρ c) (ix2 (0 : Fin 1) n)).trans (row_entry _ n))))

/-- THE RUN, VALUED: every weakly fair execution terminates, nothing faulting, each result array the projected,
    head-split array of its triple of arguments, the arguments as launched. -/
theorem run : θ_run defs (onTc (τ := τ) (main (F := Ideal))) ⟨m, fun _ => 0, ρ⟩ (fun r => ∀ c : Dev nD,
      r.2.mem ((c.tc : Thread nD τ).loc main_v1) = proj (m ((c : Thread nD τ).loc main_arg0)) (m ((c : Thread nD τ).loc main_arg3)) (fun n => (m ((c : Thread nD τ).loc main_arg4)) (ix1 n))
      ∧ r.2.mem ((c.tc : Thread nD τ).loc main_v3) = proj (m ((c : Thread nD τ).loc main_arg1)) (m ((c : Thread nD τ).loc main_arg5)) (fun n => (m ((c : Thread nD τ).loc main_arg6)) (ix1 n))
      ∧ r.2.mem ((c.tc : Thread nD τ).loc main_v5) = proj (m ((c : Thread nD τ).loc main_arg2)) (m ((c : Thread nD τ).loc main_arg7)) (fun n => (m ((c : Thread nD τ).loc main_arg8)) (ix1 n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨(h c).1.trans (value0 m ρ c), (h c).2.1.trans (value1 m ρ c), (h c).2.2.1.trans (value2 m ρ c), (h c).2.2.2⟩)
    (run_named m ρ)

end Cert.KernelIdeal.KernelValue

end
-- ==== Proof.RefEntries.lean ====
/-
  The reference, read at one entry.

  For each of the three inputs the reference contracts the last axis of the [4, 4096, 1024] activations with the first axis of
  the [1024, 1024] weights, adds the bias spread over the batch and row axes, views the last axis of length 1024 as 16 heads
  of 64 features and exchanges the row axis with the head axis. Entry (b, h, s, d) of the result is therefore entry
  (b, s, h, d) of the [4, 4096, 16, 64] view, which is entry (b, s, 64·h + d) of the sum: row s of batch b times column
  64·h + d of the weights, plus the bias at 64·h + d. The row-major position of (b, s, h, d) in [4, 4096, 16, 64] is
  ((b·4096 + s)·16 + h)·64 + d = (b·4096 + s)·1024 + (64·h + d): that is all the arithmetic there is.
-/
import proofs.«135688_j85753317032126_2_alg».proof.Proof.Gen.ReferenceIdeal.Read
import proofs.«135688_j85753317032126_2_alg».proof.Proof.HeadSplitSpec

noncomputable section

namespace Cert.ReferenceIdeal.RefEntries

open Cert.ReferenceIdeal Cert.ReferenceIdeal.Gen Cert.ReferenceIdeal.Read Cert.HeadSplit
open Idealize.ShloMosaic Idealize.ShloMosaic.ValueIdx

/-- The reference's first result is the projected, head-split array of its first activations, weights and bias. -/
theorem first_eq (x : S4x4096x1024.Idx → EReal) (W : S1024x1024.Idx → EReal) (b : S1024.Idx → EReal) :
    val_main_v5 (F := Ideal) x W b = proj x W (fun n => b (ix1 n)) := by
  funext i
  have h0 : (i 0).val < 4 := (i 0).isLt
  have h1 : (i 1).val < 16 := (i 1).isLt
  have h2 : (i 2).val < 4096 := (i 2).isLt
  have h3 : (i 3).val < 64 := (i 3).isLt
  rw [val_main_v5_apply, val_main_v4_apply, val_main_v3_apply, val_main_v0_apply, val_main_v2_apply, val_main_v1_apply]
  simp only [Ideal.addf_def]
  show _ = projAt x W (fun n => b (ix1 n)) ⟨(i 0).val, (i 0).isLt⟩ ⟨(i 1).val, (i 1).isLt⟩ ⟨(i 2).val, (i 2).isLt⟩ ⟨(i 3).val, (i 3).isLt⟩
  unfold projAt
  refine congrArg₂ (· + ·) (Finset.sum_congr rfl fun k _ => congrArg₂ (· * ·) (congrArg x ?_) (congrArg W ?_)) (congrArg b ?_)
  · funext a; apply Fin.ext
    match a with
    | ⟨0, _⟩ => show ((((i 0).val * 4096 + (i 2).val) * 16 + (i 1).val) * 64 + (i 3).val) / 4194304 = (i 0).val; omega
    | ⟨1, _⟩ => show ((((i 0).val * 4096 + (i 2).val) * 16 + (i 1).val) * 64 + (i 3).val) / 1024 % 4096 = (i 2).val; omega
    | ⟨2, _⟩ => rfl
  · funext a; apply Fin.ext
    match a with
    | ⟨0, _⟩ => rfl
    | ⟨1, _⟩ => show ((((i 0).val * 4096 + (i 2).val) * 16 + (i 1).val) * 64 + (i 3).val) % 1024 = (i 1).val * 64 + (i 3).val; omega
  · funext a; apply Fin.ext
    match a with
    | ⟨0, _⟩ => show ((((i 0).val * 4096 + (i 2).val) * 16 + (i 1).val) * 64 + (i 3).val) % 1024 = (i 1).val * 64 + (i 3).val; omega

/-- The second and third results are the same function of their own inputs. -/
theorem second_eq (x : S4x4096x1024.Idx → EReal) (W : S1024x1024.Idx → EReal) (b : S1024.Idx → EReal) :
    val_main_v11 (F := Ideal) x W b = proj x W (fun n => b (ix1 n)) :=
  (show val_main_v11 (F := Ideal) x W b = val_main_v5 (F := Ideal) x W b from rfl).trans (first_eq x W b)
theorem third_eq (x : S4x4096x1024.Idx → EReal) (W : S1024x1024.Idx → EReal) (b : S1024.Idx → EReal) :
    val_main_v17 (F := Ideal) x W b = proj x W (fun n => b (ix1 n)) :=
  (show val_main_v17 (F := Ideal) x W b = val_main_v5 (F := Ideal) x W b from rfl).trans (first_eq x W b)

end Cert.ReferenceIdeal.RefEntries

end
-- ==== Proof.lean ====
/-
  Three linear projections, each split into 16 heads, computed by a tiled kernel and by plain array operations: the two
  agree over the extended reals.

  The kernel program runs one pallas_call per input. Each walks a 4 × 8 grid; at point (i, j) it multiplies rows
  512·j … 512·j + 511 of batch i of the activations by the whole [1024, 1024] weight matrix on the matrix unit, adds the
  bias, views the 1024 columns as 16 heads of 64 features, puts the head axis first and writes the [16, 512, 64] result
  into batch i, rows 512·j … of a [4, 16, 4096, 64] array. The reference contracts the whole [4, 4096, 1024] activations with the
  weights in one operation, adds the bias, reshapes to [4, 4096, 16, 64] and exchanges the row and head axes.

  Both compute, at (b, h, s, d),   (Σ_{k < 1024} x[b, s, k] · W[k, 64·h + d]) + bias[64·h + d]:
  the same finite sum over the same index set in the same form and the same single addition, so the two results are
  equal for every input over the extended reals — no law that fails at an infinity (distributivity, cancellation) is used,
  and the precondition that the inputs are finite is never opened. The rounding of the matrix unit's operands to a
  narrower format is the identity over the extended reals; the tiling changes which execution step writes an entry,
  not the entry; the reshapes and the exchange of axes only move entries.

  The modules: the formula (HeadSplitSpec); the kernel body's stored block at an entry (BodyEntries, over the matrix
  product read as a sum in LibMatmulNN); per pallas_call, its result array as the formula of the arrays it read, from the
  blocks written back and their tiling of the array (Region0, Region1, Region2); the program's run with its result arrays
  named (NamedRun) and the buffer contents between its steps (Boundaries), joined in KernelValue; the reference's result
  at an entry (RefEntries). Here the five claims are assembled.
-/
import proofs.«135688_j85753317032126_2_alg».proof.Defs
import proofs.«135688_j85753317032126_2_alg».proof.Proof.Gen.Kernel
import proofs.«135688_j85753317032126_2_alg».proof.Proof.Gen.Kernel.Frame
import proofs.«135688_j85753317032126_2_alg».proof.Proof.Gen.KernelIdeal
import proofs.«135688_j85753317032126_2_alg».proof.Proof.Gen.KernelIdeal.Frame
import proofs.«135688_j85753317032126_2_alg».proof.Proof.Gen.ReferenceIdeal
import proofs.«135688_j85753317032126_2_alg».proof.Proof.Gen.ReferenceIdeal.Run
import proofs.«135688_j85753317032126_2_alg».proof.Proof.Gen.ReferenceIdeal.Read
import proofs.«135688_j85753317032126_2_alg».proof.Proof.Gen.Pre_finite_inputs
import proofs.«135688_j85753317032126_2_alg».proof.Proof.KernelValue
import proofs.«135688_j85753317032126_2_alg».proof.Proof.RefEntries

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the results forgotten. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation: there is nothing to restate. -/
theorem preserves : Cert.preserves_Kernel_KernelIdeal := trivial

/-- From memories agreeing on the nine arguments both programs end with each of the three results at the projected,
    head-split array of its triple of arguments: the kernel's by its valued run, the reference's by its run read entry by
    entry, and the arguments are the same arrays. -/
theorem algebraic : Cert.algebraic_KernelIdeal_ReferenceIdeal := by
  intro m ρ m' ρ' _ hagree
  refine ⟨fun c => Cert.HeadSplit.proj (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (fun n => (m ((c.tc : Thread Cert.KernelIdeal.nD Cert.KernelIdeal.τ).loc Cert.KernelIdeal.main_arg4)) (Idealize.ShloMosaic.ValueIdx.ix1 n)),
    fun c => Cert.HeadSplit.proj (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (fun n => (m ((c.tc : Thread Cert.KernelIdeal.nD Cert.KernelIdeal.τ).loc Cert.KernelIdeal.main_arg6)) (Idealize.ShloMosaic.ValueIdx.ix1 n)),
    fun c => Cert.HeadSplit.proj (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (fun n => (m ((c.tc : Thread Cert.KernelIdeal.nD Cert.KernelIdeal.τ).loc Cert.KernelIdeal.main_arg8)) (Idealize.ShloMosaic.ValueIdx.ix1 n)),
    Cert.KernelIdeal.KernelValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  obtain ⟨r0, r1, r2, rest⟩ := h c
  refine ⟨?_, ?_, ?_, rest⟩
  · rw [r0, Cert.ReferenceIdeal.Read.val_main_v5_eq, Cert.ReferenceIdeal.RefEntries.first_eq, a0, a3, a4]
  · rw [r1, Cert.ReferenceIdeal.Read.val_main_v11_eq, Cert.ReferenceIdeal.RefEntries.second_eq, a1, a5, a6]
  · rw [r2, Cert.ReferenceIdeal.Read.val_main_v17_eq, Cert.ReferenceIdeal.RefEntries.third_eq, a2, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
